-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1500000x32 : Shape := ⟨2, ![1500000, 32]⟩
abbrev S1500000x2 : Shape := ⟨2, ![1500000, 2]⟩
abbrev S_ : Shape := ⟨0, ![]⟩

class Facts : Prop where
  bcast_S_S1500000x32 : S_.BroadcastsInDim S1500000x32 (![] : Fin 0 → Fin S1500000x32.rank)
  reducesTo_S1500000x32_S_d0_1 : S1500000x32.ReducesTo [0, 1] S_
  h_S_ : 0 < S_.numel

variable [Facts]

def fn {F : FTy → Type} [FloatOps F] (main_arg0 : FVec F S1500000x32 .f32) (main_arg1 : IVec S1500000x2 32) : IVec S_ 1 :=
  let main_v0 : FVec F S1500000x32 .f32 := Host.absf main_arg0
  let main_cst : FVec F S_ .f32 := constant S_ .f32 0x7F800000#32
  let main_v1 : FVec F S1500000x32 .f32 := broadcastInDim S1500000x32 ![] bcast_S_S1500000x32 main_cst
  let main_v2 : IVec S1500000x32 1 := cmpf .olt main_v0 main_v1
  let main_c : IVec S_ 1 := constantI S_ 1 1#1
  let main_v3 : IVec S_ 1 := (fun x v => Host.reduce IntOp.andi x v reducesTo_S1500000x32_S_d0_1 h_S_) main_v2 main_c
  main_v3
-- ==== Kernel.lean ====
abbrev S1500000x32 : Shape := ⟨2, ![1500000, 32]⟩
abbrev S1500000x2 : Shape := ⟨2, ![1500000, 2]⟩
abbrev S_ : Shape := ⟨0, ![]⟩
abbrev S1507328x32 : Shape := ⟨2, ![1507328, 32]⟩
abbrev S1507328x2 : Shape := ⟨2, ![1507328, 2]⟩
abbrev S1x1 : Shape := ⟨2, ![1, 1]⟩
abbrev S16384x32 : Shape := ⟨2, ![16384, 32]⟩
abbrev S16384x2 : Shape := ⟨2, ![16384, 2]⟩
abbrev S16384x1 : Shape := ⟨2, ![16384, 1]⟩
abbrev S16384 : Shape := ⟨1, ![16384]⟩
abbrev S1x16384 : Shape := ⟨2, ![1, 16384]⟩
abbrev S1 : Shape := ⟨1, ![1]⟩

abbrev nBuf : Space → Nat
  | .hbm => 12
  | .vmem => 5
  | .smem => 0
  | _ => 0

abbrev bufTy : (tb : Table) → Fin (tcTables nBuf tb) → BufTy
  | .hbm, ⟨0, _⟩ => ⟨S1500000x32, .f32⟩
  | .hbm, ⟨1, _⟩ => ⟨S1500000x2, .i32⟩
  | .hbm, ⟨2, _⟩ => ⟨S_, .i32⟩
  | .hbm, ⟨3, _⟩ => ⟨S_, .f32⟩
  | .hbm, ⟨4, _⟩ => ⟨S1507328x32, .f32⟩
  | .hbm, ⟨5, _⟩ => ⟨S_, .i32⟩
  | .hbm, ⟨6, _⟩ => ⟨S_, .i32⟩
  | .hbm, ⟨7, _⟩ => ⟨S1507328x2, .i32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S16384x32, .f32⟩
  | .local _ .vmem, ⟨1, _⟩ => ⟨S16384x32, .f32⟩
  | .local _ .vmem, ⟨2, _⟩ => ⟨S16384x2, .i32⟩
  | .local _ .vmem, ⟨3, _⟩ => ⟨S16384x2, .i32⟩
  | .local _ .vmem, ⟨4, _⟩ => ⟨S1x1, .f32⟩
  | _, _ => ⟨S1500000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![92], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  pads_S1500000x32_S1507328x32_073280_000 : S1500000x32.Pads (![0, 0] : Fin 2 → Nat) ![7328, 0] ![0, 0] S1507328x32
  h_S_ : 0 < S_.numel
  pads_S1500000x2_S1507328x2_073280_000 : S1500000x2.Pads (![0, 0] : Fin 2 → Nat) ![7328, 0] ![0, 0] S1507328x2
  inb_S1x1_S1x1_0_0 : ∀ a, (![0, 0] : Fin 2 → Nat) a + S1x1.size a ≤ S1x1.size a
  h_S1x1 : 0 < S1x1.numel
  inb_S16384x32_S16384x32_0_0 : ∀ a, (![0, 0] : Fin 2 → Nat) a + S16384x32.size a ≤ S16384x32.size a
  h_S16384x32 : 0 < S16384x32.numel
  shapeCasts_S16384x32_S16384x32 : S16384x32.ShapeCasts S16384x32
  inb_S16384x2_S16384x2_0_0 : ∀ a, (![0, 0] : Fin 2 → Nat) a + S16384x2.size a ≤ S16384x2.size a
  h_S16384x2 : 0 < S16384x2.numel
  shapeCasts_S16384x2_S16384x2 : S16384x2.ShapeCasts S16384x2
  slices_S16384x2_o0_0_S16384x1 : S16384x2.Slices ![0, 0] S16384x1
  shapeCasts_S16384x1_S16384 : S16384x1.ShapeCasts S16384
  slices_S16384x2_o0_1_S16384x1 : S16384x2.Slices ![0, 1] S16384x1
  iota_S16384x32_d1_w32 : S16384x32.Iotas .tc 32 [1]
  shapeCasts_S16384_S16384x1 : S16384.ShapeCasts S16384x1
  broadcasts_S16384x1_S16384x32 : S16384x1.Broadcasts S16384x32
  reduces_S16384x32_S16384 : S16384x32.Reduces [1] S16384
  iota_S1x16384_d1_w32 : S1x16384.Iotas .tc 32 [1]
  shapeCasts_S1x16384_S16384 : S1x16384.ShapeCasts S16384
  shapeCasts_S16384_S1x16384 : S16384.ShapeCasts S1x16384
  reduces_S1x16384_S1 : S1x16384.Reduces [1] S1
  shapeCasts_S1_S1x1 : S1.ShapeCasts S1x1
  inpos_S1x1_p0_0 : ∀ a, (![0, 0] : Fin 2 → Nat) a < S1x1.size a
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x32.size a ≤ S1507328x32.size a
  hwx0_0 : ∀ i : grid0.Coords, EltTy.bits .f32 = 32 ∨ (Rect.block (s := S1507328x32) S16384x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x2.size a ≤ S1507328x2.size a
  hwx0_1 : ∀ i : grid0.Coords, EltTy.bits .i32 = 32 ∨ (Rect.block (s := S1507328x2) S16384x2.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S16384x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16384x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1500000x32 : Shape := ⟨2, ![1500000, 32]⟩
abbrev S1500000x2 : Shape := ⟨2, ![1500000, 2]⟩
abbrev S1500000x1 : Shape := ⟨2, ![1500000, 1]⟩
abbrev S1500000 : Shape := ⟨1, ![1500000]⟩
abbrev S_ : Shape := ⟨0, ![]⟩
abbrev S32 : Shape := ⟨1, ![32]⟩
abbrev S1x32 : Shape := ⟨2, ![1, 32]⟩

abbrev nBuf : Space → Nat
  | .hbm => 66
  | .vmem => 0
  | .smem => 0
  | _ => 0

abbrev bufTy : (tb : Table) → Fin (tcTables nBuf tb) → BufTy
  | .hbm, ⟨0, _⟩ => ⟨S1500000x32, .f32⟩
  | .hbm, ⟨1, _⟩ => ⟨S1500000x2, .i32⟩
  | .hbm, ⟨2, _⟩ => ⟨S1500000x1, .i32⟩
  | .hbm, ⟨3, _⟩ => ⟨S1500000, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1500000, .i32⟩
  | .hbm, ⟨8, _⟩ => ⟨S1500000, .i32⟩
  | .hbm, ⟨9, _⟩ => ⟨S_, .i32⟩
  | .hbm, ⟨10, _⟩ => ⟨S1500000, .i32⟩
  | .hbm, ⟨11, _⟩ => ⟨S1500000, .i32⟩
  | .hbm, ⟨12, _⟩ => ⟨S1500000x1, .i32⟩
  | .hbm, ⟨13, _⟩ => ⟨S1500000, .i32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1500000x32, .f32⟩
  | .hbm, ⟨18, _⟩ => ⟨S1500000x32, .f32⟩
  | .hbm, ⟨19, _⟩ => ⟨S_, .f32⟩
  | .hbm, ⟨20, _⟩ => ⟨S1500000x32, .f32⟩
  | .hbm, ⟨21, _⟩ => ⟨S1500000x32, .f32⟩
  | .hbm, ⟨22, _⟩ => ⟨S32, .i32⟩
  | .hbm, ⟨23, _⟩ => ⟨S1x32, .i32⟩
  | .hbm, ⟨24, _⟩ => ⟨S_, .f32⟩
  | .hbm, ⟨25, _⟩ => ⟨S1500000x32, .f32⟩
  | .hbm, ⟨26, _⟩ => ⟨S1500000x32, .f32⟩
  | .hbm, ⟨27, _⟩ => ⟨S_, .f32⟩
  | .hbm, ⟨28, _⟩ => ⟨S_, .f32⟩
  | .hbm, ⟨29, _⟩ => ⟨S1500000x32, .f32⟩
  | .hbm, ⟨30, _⟩ => ⟨S1500000x32, .f32⟩
  | .hbm, ⟨31, _⟩ => ⟨S1500000x32, .f32⟩
  | .hbm, ⟨32, _⟩ => ⟨S1500000x32, .f32⟩
  | .hbm, ⟨33, _⟩ => ⟨S1500000x1, .i32⟩
  | .hbm, ⟨34, _⟩ => ⟨S1500000x32, .i32⟩
  | .hbm, ⟨35, _⟩ => ⟨S1500000x32, .i32⟩
  | .hbm, ⟨36, _⟩ => ⟨S1500000x32, .i1⟩
  | .hbm, ⟨37, _⟩ => ⟨S_, .f32⟩
  | .hbm, ⟨38, _⟩ => ⟨S_, .f32⟩
  | .hbm, ⟨39, _⟩ => ⟨S1500000x32, .f32⟩
  | .hbm, ⟨40, _⟩ => ⟨S1500000x32, .f32⟩
  | .hbm, ⟨41, _⟩ => ⟨S_, .f32⟩
  | .hbm, ⟨42, _⟩ => ⟨S1500000, .f32⟩
  | .hbm, ⟨43, _⟩ => ⟨S1500000x32, .f32⟩
  | .hbm, ⟨44, _⟩ => ⟨S1500000x32, .f32⟩
  | .hbm, ⟨45, _⟩ => ⟨S_, .i32⟩
  | .hbm, ⟨46, _⟩ => ⟨S1500000, .i32⟩
  | .hbm, ⟨47, _⟩ => ⟨S1500000, .i32⟩
  | .hbm, ⟨48, _⟩ => ⟨S1500000x1, .i32⟩
  | .hbm, ⟨49, _⟩ => ⟨S1500000x32, .i32⟩
  | .hbm, ⟨50, _⟩ => ⟨S1500000x32, .i32⟩
  | .hbm, ⟨51, _⟩ => ⟨S1500000x32, .i1⟩
  | .hbm, ⟨52, _⟩ => ⟨S_, .f32⟩
  | .hbm, ⟨53, _⟩ => ⟨S_, .f32⟩
  | .hbm, ⟨54, _⟩ => ⟨S1500000x32, .f32⟩
  | .hbm, ⟨55, _⟩ => ⟨S1500000x32, .f32⟩
  | .hbm, ⟨56, _⟩ => ⟨S_, .f32⟩
  | .hbm, ⟨57, _⟩ => ⟨S1500000, .f32⟩
  | .hbm, ⟨58, _⟩ => ⟨S_, .i32⟩
  | .hbm, ⟨59, _⟩ => ⟨S1500000, .i32⟩
  | .hbm, ⟨60, _⟩ => ⟨S1500000, .i1⟩
  | .hbm, ⟨61, _⟩ => ⟨S1500000, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S1500000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_cst_1 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_2 : Ref sig .tc := ⟨.hbm, 24, rfl⟩
abbrev main_v8 : Ref sig .tc := ⟨.hbm, 25, rfl⟩
abbrev main_v9 : Ref sig .tc := ⟨.hbm, 26, rfl⟩
abbrev main_cst_3 : Ref sig .tc := ⟨.hbm, 27, rfl⟩
abbrev main_call2_v0 : Ref sig .tc := ⟨.hbm, 28, rfl⟩
abbrev main_call2_v1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_4 : Ref sig .tc := ⟨.hbm, 37, rfl⟩
abbrev main_call3_v0 : Ref sig .tc := ⟨.hbm, 38, rfl⟩
abbrev main_call3_v1 : Ref sig .tc := ⟨.hbm, 39, rfl⟩
abbrev main_v17 : Ref sig .tc := ⟨.hbm, 40, rfl⟩
abbrev main_cst_5 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_6 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_7 : Ref sig .tc := ⟨.hbm, 52, rfl⟩
abbrev main_call4_v0 : Ref sig .tc := ⟨.hbm, 53, rfl⟩
abbrev main_call4_v1 : Ref sig .tc := ⟨.hbm, 54, rfl⟩
abbrev main_v27 : Ref sig .tc := ⟨.hbm, 55, rfl⟩
abbrev main_cst_8 : Ref sig .tc := ⟨.hbm, 56, rfl⟩
abbrev main_v28 : Ref sig .tc := ⟨.hbm, 57, rfl⟩
abbrev main_c_9 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_10 : Ref sig .tc := ⟨.hbm, 62, rfl⟩
abbrev main_v32 : Ref sig .tc := ⟨.hbm, 63, rfl⟩
abbrev main_cst_11 : Ref sig .tc := ⟨.hbm, 64, rfl⟩
abbrev main_v33 : Ref sig .tc := ⟨.hbm, 65, rfl⟩

abbrev nD : Nat := 1
abbrev τ : Topo := Topo.v7x

variable {F : FTy → Type} [FloatOps F]

class Facts₀ : Prop where
  slices_S1500000x2_S1500000x1_0_0 : S1500000x2.Slices ![0, 0] S1500000x1
  shapeCasts_S1500000x1_S1500000 : S1500000x1.ShapeCasts S1500000
  bcast_S_S1500000 : S_.BroadcastsInDim S1500000 (![] : Fin 0 → Fin S1500000.rank)
  slices_S1500000x2_S1500000x1_0_1 : S1500000x2.Slices ![0, 1] S1500000x1
  bcast_S_S1500000x32 : S_.BroadcastsInDim S1500000x32 (![] : Fin 0 → Fin S1500000x32.rank)
  bcast_S32_S1x32_1 : S32.BroadcastsInDim S1x32 (![1] : Fin 1 → Fin S1x32.rank)
  bcast_S1500000_S1500000x1_0 : S1500000.BroadcastsInDim S1500000x1 (![0] : Fin 1 → Fin S1500000x1.rank)
  bcast_S1x32_S1500000x32_0_1 : S1x32.BroadcastsInDim S1500000x32 (![0, 1] : Fin 2 → Fin S1500000x32.rank)
  bcast_S1500000x1_S1500000x32_0_1 : S1500000x1.BroadcastsInDim S1500000x32 (![0, 1] : Fin 2 → Fin S1500000x32.rank)
  reducesTo_S1500000x32_S1500000_d1 : S1500000x32.ReducesTo [1] S1500000
  h_S_ : 0 < S_.numel
  reducesTo_S1500000_S_d0 : S1500000.ReducesTo [0] S_

variable [Facts₀]

class Facts : Prop extends Facts₀ where

variable [Facts]
-- ==== Proof.LibTiledSum.lean ====
/-
  Sums over tiles of consecutive numbers, with a masked tail; and the signed maximum and minimum of two words.

  `sum_tiles`: a sum over `a` tiles of `b` consecutive numbers is the sum over the first `a * b` numbers.
  `sum_head`: a sum over `n + k` numbers of a function that vanishes from `n` on is the sum over the first `n`.
  `sum_tiles_head`: the tiles cover at least `n` numbers; the numbers from `n` on count zero; the total is the sum
  over the first `n` — the shape of a reduction over a padded array whose padding rows are masked before each tile is
  summed. All three hold in any commutative monoid (so on the extended reals, with no finiteness).
  `maxsi_comm`, `minsi_comm`: the signed maximum and minimum of two words of any width do not depend on the order of
  the operands (a clip written `max(x, lo)` on one side and `max(lo, x)` on the other).
-/
import Idealize.ShloMosaic.PureOps.Ideal

noncomputable section

namespace Cert.TiledSum

open Idealize.ShloMosaic

/-- A sum over `a` tiles of `b` consecutive numbers is the sum over the first `a * b` numbers. -/
theorem sum_tiles {M : Type*} [AddCommMonoid M] (a b : ℕ) (f : ℕ → M) :
    ∑ t : Fin a, ∑ r : Fin b, f (t.val * b + r.val) = ∑ n : Fin (a * b), f n.val := by
  rw [← Equiv.sum_comp finProdFinEquiv (fun n : Fin (a * b) => f n.val), Fintype.sum_prod_type]
  refine Finset.sum_congr rfl fun t _ => Finset.sum_congr rfl fun r _ => ?_
  congr 1
  show t.val * b + r.val = r.val + b * t.val
  rw [Nat.mul_comm, Nat.add_comm]

/-- A sum over `n + k` numbers of a function that vanishes from `n` on is the sum over the first `n`. -/
theorem sum_head {M : Type*} [AddCommMonoid M] (n k : ℕ) (f : ℕ → M) (hf : ∀ i, n ≤ i → f i = 0) :
    ∑ i : Fin (n + k), f i.val = ∑ i : Fin n, f i.val := by
  rw [Fin.sum_univ_add]
  have : ∑ i : Fin k, f (Fin.natAdd n i).val = 0 :=
    Finset.sum_eq_zero fun i _ => hf _ (by simp only [Fin.coe_natAdd]; omega)
  rw [this, add_zero]
  rfl

/-- `a` tiles of `b` numbers cover the first `n` numbers; the numbers from `n` on count zero: the tiles' sums add up to
    the sum over the first `n`. -/
theorem sum_tiles_head {M : Type*} [AddCommMonoid M] (a b n : ℕ) (hn : n ≤ a * b) (F : Fin n → M) :
    ∑ t : Fin a, ∑ r : Fin b, (if h : t.val * b + r.val < n then F ⟨t.val * b + r.val, h⟩ else 0)
      = ∑ i : Fin n, F i := by
  have h1 := sum_tiles a b (fun i => if h : i < n then F ⟨i, h⟩ else 0)
  have h2 := sum_head n (a * b - n) (fun i => if h : i < n then F ⟨i, h⟩ else 0) (fun i hi => dif_neg (by omega))
  have h3 : ∑ i : Fin (a * b), (fun i => if h : i < n then F ⟨i, h⟩ else 0) i.val
      = ∑ i : Fin (n + (a * b - n)), (fun i => if h : i < n then F ⟨i, h⟩ else 0) i.val :=
    Fintype.sum_equiv (finCongr (by omega)) _ _ (fun _ => rfl)
  refine (h1.trans (h3.trans h2)).trans (Finset.sum_congr rfl fun i _ => ?_)
  exact dif_pos i.isLt

/-- The signed maximum of two words does not depend on the order of the operands. -/
theorem maxsi_comm {w : ℕ} (a b : BitVec w) : IntOp.maxsi a b = IntOp.maxsi b a := by
  unfold IntOp.maxsi
  by_cases h1 : b.slt a = true <;> by_cases h2 : a.slt b = true
  · rw [BitVec.slt, decide_eq_true_eq] at h1 h2; omega
  · rw [if_pos h1, if_neg h2]
  · rw [if_neg h1, if_pos h2]
  · rw [if_neg h1, if_neg h2]
    rw [BitVec.slt, decide_eq_true_eq] at h1 h2
    exact BitVec.eq_of_toInt_eq (by omega)

/-- The signed minimum of two words does not depend on the order of the operands. -/
theorem minsi_comm {w : ℕ} (a b : BitVec w) : IntOp.minsi a b = IntOp.minsi b a := by
  unfold IntOp.minsi
  by_cases h1 : a.slt b = true <;> by_cases h2 : b.slt a = true
  · rw [BitVec.slt, decide_eq_true_eq] at h1 h2; omega
  · rw [if_pos h1, if_neg h2]
  · rw [if_neg h1, if_pos h2]
  · rw [if_neg h1, if_neg h2]
    rw [BitVec.slt, decide_eq_true_eq] at h1 h2
    exact BitVec.eq_of_toInt_eq (by omega)

end Cert.TiledSum

end
-- ==== Proof.RowLoss.lean ====
/-
  The survival cross-entropy of one row, and its mean over the rows, on the extended reals.

  A row holds 32 hazards `p k`, a duration word `d` and an event word `e`. The hazards are clipped into
  `[lo, hi]` (`lo` the f32 nearest 1e-7, `hi` the f32 just below one), the duration into `[1, 32]`. A censored
  row (`e = 0`) costs the sum of `-log (max (1 - h k) lo)` over the bins `k` below the duration; any other row costs
  the sum of `-log (h k)` over the bins from `duration - 1` on. The result is the sum of the 1,500,000 row costs
  divided by the f32 word of 1,500,000.

  The kernel computes this tile by tile: 92 tiles of 16,384 rows cover 1,507,328 rows, of which the last 7,328 are
  padding and are masked to zero before the tile is summed. On the extended reals addition is commutative and
  associative with no side condition, so the sum over the tiles of the masked tile sums is the sum over the rows
  (`sum_tiles_masked`); no finiteness is needed anywhere.
-/
import Idealize.ShloMosaic.PureOps.Ideal
import Idealize.ShloMosaic.PureOps.Ideal.Laws
import Idealize.ShloMosaic.Lib.ValueIdx
import proofs.«153819_j89962384982548_2_alg».proof.Proof.LibTiledSum

noncomputable section

namespace Cert.RowLoss

open Idealize.ShloMosaic

/-- The lower clip bound: the f32 nearest 1e-7. -/
def lo : EReal := Ideal.ofBits .f32 0x33D6BF95#32
/-- The upper clip bound: the largest f32 below one. -/
def hi : EReal := Ideal.ofBits .f32 0x3F7FFFFE#32
/-- The f32 one. -/
def one : EReal := Ideal.ofBits .f32 0x3F800000#32
/-- The f32 word of the row count 1,500,000. -/
def count : EReal := Ideal.ofBits .f32 0x49B71B00#32

/-- A hazard clipped into `[lo, hi]`. -/
def hazard (x : EReal) : EReal := min (max x lo) hi

/-- A duration word clipped (signed) into `[1, 32]`. -/
def duration (d : BitVec 32) : BitVec 32 := IntOp.minsi (IntOp.maxsi d 1#32) 32#32

/-- The cost of a censored row: the bins strictly below the duration, each `-log (max (1 - h) lo)`. -/
def censored (p : Fin 32 → EReal) (d : BitVec 32) : EReal :=
  ∑ k : Fin 32, Scalar.select (IntOp.cmpi .slt (BitVec.ofNat 32 k.val) (duration d))
    (-(Ideal.log (max (one - hazard (p k)) lo))) 0

/-- The cost of a row with an event: the bins from `duration - 1` on, each `-log h`. -/
def event (p : Fin 32 → EReal) (d : BitVec 32) : EReal :=
  ∑ k : Fin 32, Scalar.select (IntOp.cmpi .sge (BitVec.ofNat 32 k.val) (IntOp.subi (duration d) 1#32))
    (-(Ideal.log (hazard (p k)))) 0

/-- The cost of a row: censored when the event word is zero. -/
def rowLoss (p : Fin 32 → EReal) (d e : BitVec 32) : EReal :=
  Scalar.select (IntOp.cmpi .eq e 0#32) (censored p d) (event p d)

/-- The mean cost over the 1,500,000 rows. -/
def meanLoss (P : Fin 1500000 → Fin 32 → EReal) (D E : Fin 1500000 → BitVec 32) : EReal :=
  Ideal.div (∑ n : Fin 1500000, rowLoss (P n) (D n) (E n)) count

/-! ## The signed maximum and minimum of two words do not depend on the order of the operands -/

theorem maxsi_comm (a b : BitVec 32) : IntOp.maxsi a b = IntOp.maxsi b a := Cert.TiledSum.maxsi_comm a b

theorem minsi_comm (a b : BitVec 32) : IntOp.minsi a b = IntOp.minsi b a := Cert.TiledSum.minsi_comm a b

/-! ## A row of tile `t` is a row of the array exactly when `16384 t + r < 1500000` -/

/-- The word arithmetic of the row number does not wrap: `t < 92`, `r < 16384`. -/
theorem rowWord (t r : ℕ) (ht : t < 92) (hr : r < 16384) :
    IntOp.addi (IntOp.muli (BitVec.ofNat 32 t) 16384#32) (BitVec.ofNat 32 r) = BitVec.ofNat 32 (t * 16384 + r) := by
  unfold IntOp.addi IntOp.muli
  apply BitVec.eq_of_toNat_eq
  simp only [BitVec.toNat_add, BitVec.toNat_mul, BitVec.toNat_ofNat]
  omega

/-- The kernel's mask of a row, as a comparison of natural numbers. -/
theorem valid_iff (t r : ℕ) (ht : t < 92) (hr : r < 16384) :
    IntOp.cmpi .slt (IntOp.addi (IntOp.muli (BitVec.ofNat 32 t) 16384#32) (BitVec.ofNat 32 r)) 1500000#32 = 1#1
      ↔ t * 16384 + r < 1500000 := by
  rw [rowWord t r ht hr]
  unfold IntOp.cmpi
  dsimp only
  have hn : t * 16384 + r < 2 ^ 31 := by omega
  have e1 : (BitVec.ofNat 32 (t * 16384 + r)).toInt = ((t * 16384 + r : ℕ) : ℤ) := by
    rw [BitVec.toInt_eq_toNat_of_lt (by simp only [BitVec.toNat_ofNat]; omega), BitVec.toNat_ofNat]
    congr 1; omega
  have e2 : (1500000#32 : BitVec 32).toInt = 1500000 := by decide
  rw [BitVec.slt, e1, e2]
  constructor
  · intro h
    by_contra hc
    rw [decide_eq_false (by omega)] at h
    exact absurd h (by decide)
  · intro h
    rw [decide_eq_true (by omega)]
    rfl

/-! ## Tiles of consecutive rows, the padding rows masked -/

/-- The 92 tiles of 16,384 rows, the rows from 1,500,000 on counted as zero, sum to the sum over the rows. -/
theorem sum_tiles_masked {M : Type*} [AddCommMonoid M] (F : Fin 1500000 → M) :
    ∑ t : Fin 92, ∑ r : Fin 16384,
        (if h : t.val * 16384 + r.val < 1500000 then F ⟨t.val * 16384 + r.val, h⟩ else 0)
      = ∑ n : Fin 1500000, F n :=
  Cert.TiledSum.sum_tiles_head 92 16384 1500000 (by norm_num) F

end Cert.RowLoss

end
-- ==== Proof.RefLoss.lean ====
/-
  The reference program's result is the mean row loss of the specification.

  The reference clips the duration word and the hazards with the constant as the FIRST operand of the signed
  maximum / minimum and of the extended-real max / min, starts every sum from the zero word, and reads its inputs
  through composed index functions. Turning the operands round (the signed maximum and minimum and the extended
  reals' max and min are commutative), reading the zero word as 0 (so that "0 + sum" is the sum) and evaluating the
  index functions at a row `n` and a bin `k` gives the specification's terms one by one. Every law used holds on all
  extended reals; no finiteness is needed.
-/
import proofs.«153819_j89962384982548_2_alg».proof.Proof.RowLoss
import proofs.«153819_j89962384982548_2_alg».proof.Proof.Gen.ReferenceIdeal.Read
import Idealize.ShloMosaic.Lib.ValueIdx
import Idealize.ShloMosaic.PureOps.Ideal
import Idealize.ShloMosaic.PureOps.Ideal.Laws

noncomputable section

namespace Cert.RefLoss

open Idealize.ShloMosaic Idealize.ShloMosaic.ValueIdx Cert.ReferenceIdeal Cert.ReferenceIdeal.Read

/-- The first input: 1,500,000 rows of 32 hazards. -/
abbrev X0 : Type := (⟨S1500000x32, .f32⟩ : BufTy).Contents (Elt Ideal)
/-- The second input: per row, the duration word and the event word. -/
abbrev X1 : Type := (⟨S1500000x2, .i32⟩ : BufTy).Contents (Elt Ideal)

/-! ## The duration word of row `n`, clipped -/

/-- The slice and reshape of column 0 read the duration word of row `n`. -/
theorem idx_dur (n : Fin 1500000) : idx_main_v0 (idx_main_v1 (ix1 n)) = ix2 n (0 : Fin 2) :=
  funext fun a => Fin.ext (by match a with | ⟨0, _⟩ => exact Nat.div_one _ | ⟨1, _⟩ => rfl)

/-- The reference's clipped duration is the specification's: the constants come first there, and the signed maximum
    and minimum do not depend on the order. -/
theorem v2_at (x1 : X1) (n : Fin 1500000) :
    val_main_v2 (F := Ideal) x1 (ix1 n) = RowLoss.duration (x1 (ix2 n (0 : Fin 2))) := by
  rw [val_main_v2_apply, val_main_call0_v4_apply, val_main_call0_v3_apply, val_main_c_0_apply,
    val_main_call0_v2_apply, val_main_call0_v1_apply, val_main_call0_v0_apply, val_main_c_apply,
    val_main_v1_apply, val_main_v0_apply, idx_dur]
  unfold RowLoss.duration
  rw [RowLoss.minsi_comm, RowLoss.maxsi_comm]

/-! ## The hazards, clipped -/

/-- The reference's clipped hazard is the specification's: `min hi (max lo x) = min (max x lo) hi`. -/
theorem v5_at (x0 : X0) (j : S1500000x32.Idx) :
    val_main_v5 (F := Ideal) x0 j = RowLoss.hazard (x0 j) := by
  rw [val_main_v5_apply, val_main_call1_v4_apply, val_main_call1_v3_apply, val_main_cst_1_apply,
    val_main_call1_v2_apply, val_main_call1_v1_apply, val_main_call1_v0_apply, val_main_cst_apply]
  simp only [Ideal.minimumf_def, Ideal.maximumf_def, Ideal.ofBits_def]
  unfold RowLoss.hazard RowLoss.lo RowLoss.hi
  rw [min_comm, max_comm]

/-! ## The bin number and the broadcast duration at row `n`, bin `k` -/

/-- The iota, broadcast over the rows, reads the word of the bin number (first copy). -/
theorem v14_at (n : Fin 1500000) (k : Fin 32) :
    val_main_v14 (F := Ideal) (ix2 n k) = BitVec.ofNat 32 k.val := by
  rw [val_main_v14_apply, val_main_v7_apply, val_main_v6_apply]

/-- The iota, broadcast over the rows, reads the word of the bin number (second copy). -/
theorem v24_at (n : Fin 1500000) (k : Fin 32) :
    val_main_v24 (F := Ideal) (ix2 n k) = BitVec.ofNat 32 k.val := by
  rw [val_main_v24_apply, val_main_v7_apply, val_main_v6_apply]

/-- The two broadcasts of a per-row word read row `n`. -/
theorem idx_row15 (n : Fin 1500000) (k : Fin 32) : idx_main_v13 (idx_main_v15 (ix2 n k)) = ix1 n :=
  funext fun a => Fin.ext (by match a with | ⟨0, _⟩ => rfl)

theorem idx_row25 (n : Fin 1500000) (k : Fin 32) : idx_main_v23 (idx_main_v25 (ix2 n k)) = ix1 n :=
  funext fun a => Fin.ext (by match a with | ⟨0, _⟩ => rfl)

/-- The clipped duration, broadcast over the bins. -/
theorem v15_at (x1 : X1) (n : Fin 1500000) (k : Fin 32) :
    val_main_v15 (F := Ideal) x1 (ix2 n k) = RowLoss.duration (x1 (ix2 n (0 : Fin 2))) := by
  rw [val_main_v15_apply, val_main_v13_apply, idx_row15, v2_at]

/-- The clipped duration less one, broadcast over the bins. -/
theorem v25_at (x1 : X1) (n : Fin 1500000) (k : Fin 32) :
    val_main_v25 (F := Ideal) x1 (ix2 n k)
      = IntOp.subi (RowLoss.duration (x1 (ix2 n (0 : Fin 2)))) 1#32 := by
  rw [val_main_v25_apply, val_main_v23_apply, idx_row25, val_main_v22_apply, v2_at,
    val_main_v21_apply, val_main_c_6_apply]

/-! ## The two costs of a bin -/

/-- The censored cost of a bin: `-log (max (1 - h) lo)`, the reference having the constant first in the max. -/
theorem v12_at (x0 : X0) (j : S1500000x32.Idx) :
    val_main_v12 (F := Ideal) x0 j
      = -(Ideal.log (max (RowLoss.one - RowLoss.hazard (x0 j)) RowLoss.lo)) := by
  rw [val_main_v12_apply, val_main_v11_apply, val_main_v10_apply, val_main_call2_v1_apply,
    val_main_call2_v0_apply, val_main_cst_3_apply, val_main_v9_apply, val_main_v8_apply,
    val_main_cst_2_apply, v5_at]
  simp only [Ideal.hostNegf_def, Ideal.negf_def, Ideal.hostUnary_log_def, Ideal.maximumf_def, Ideal.subf_def,
    Ideal.ofBits_def]
  unfold RowLoss.one RowLoss.lo
  rw [max_comm]

/-- The event cost of a bin: `-log h`. -/
theorem v20_at (x0 : X0) (j : S1500000x32.Idx) :
    val_main_v20 (F := Ideal) x0 j = -(Ideal.log (RowLoss.hazard (x0 j))) := by
  rw [val_main_v20_apply, val_main_v19_apply, v5_at]
  simp only [Ideal.hostNegf_def, Ideal.negf_def, Ideal.hostUnary_log_def]

/-- The zero the masked-out bins are given (first copy): the zero word is 0. -/
theorem zero3_at (j : S1500000x32.Idx) : val_main_call3_v1 (F := Ideal) j = (0 : EReal) := by
  rw [val_main_call3_v1_apply, val_main_call3_v0_apply, val_main_cst_4_apply, Ideal.ofBits_def,
    Ideal.ofBits_zero_f32]

/-- The zero the masked-out bins are given (second copy). -/
theorem zero4_at (j : S1500000x32.Idx) : val_main_call4_v1 (F := Ideal) j = (0 : EReal) := by
  rw [val_main_call4_v1_apply, val_main_call4_v0_apply, val_main_cst_7_apply, Ideal.ofBits_def,
    Ideal.ofBits_zero_f32]

/-! ## The two row sums -/

/-- The row sum's index function at row `n`, bin `k` (first copy). -/
theorem idx18 (n : Fin 1500000) (k : Fin 32) : idx_main_v18 (ix1 n) k = ix2 n k :=
  funext fun a => Fin.ext (by match a with | ⟨0, _⟩ => rfl | ⟨1, _⟩ => rfl)

/-- The row sum's index function at row `n`, bin `k` (second copy). -/
theorem idx28 (n : Fin 1500000) (k : Fin 32) : idx_main_v28 (ix1 n) k = ix2 n k :=
  funext fun a => Fin.ext (by match a with | ⟨0, _⟩ => rfl | ⟨1, _⟩ => rfl)

/-- The censored row sum of the reference is the specification's. -/
theorem v18_at (x0 : X0) (x1 : X1) (n : Fin 1500000) :
    val_main_v18 (F := Ideal) x0 x1 (ix1 n)
      = RowLoss.censored (fun k => x0 (ix2 n k)) (x1 (ix2 n (0 : Fin 2))) := by
  rw [val_main_v18_apply, val_main_cst_5_apply, Ideal.ofBits_def, Ideal.ofBits_zero_f32, zero_add]
  unfold RowLoss.censored
  refine Finset.sum_congr rfl fun k _ => ?_
  rw [idx18, val_main_v17_apply, val_main_v16_apply, v14_at, v15_at, v12_at, zero3_at]

/-- The event row sum of the reference is the specification's. -/
theorem v28_at (x0 : X0) (x1 : X1) (n : Fin 1500000) :
    val_main_v28 (F := Ideal) x0 x1 (ix1 n)
      = RowLoss.event (fun k => x0 (ix2 n k)) (x1 (ix2 n (0 : Fin 2))) := by
  rw [val_main_v28_apply, val_main_cst_8_apply, Ideal.ofBits_def, Ideal.ofBits_zero_f32, zero_add]
  unfold RowLoss.event
  refine Finset.sum_congr rfl fun k _ => ?_
  rw [idx28, val_main_v27_apply, val_main_v26_apply, v24_at, v25_at, v20_at, zero4_at]

/-! ## The row -/

/-- The slice and reshape of column 1 read the event word of row `n`. -/
theorem idx_evt (n : Fin 1500000) : idx_main_v3 (idx_main_v4 (ix1 n)) = ix2 n (1 : Fin 2) :=
  funext fun a => Fin.ext (by match a with | ⟨0, _⟩ => exact Nat.div_one _ | ⟨1, _⟩ => rfl)

/-- The comparison that tells a censored row: the event word against the zero word. -/
theorem v30_at (x1 : X1) (n : Fin 1500000) :
    val_main_v30 (F := Ideal) x1 (ix1 n) = IntOp.cmpi .eq (x1 (ix2 n (1 : Fin 2))) 0#32 := by
  rw [val_main_v30_apply, val_main_v4_apply, val_main_v3_apply, idx_evt, val_main_v29_apply,
    val_main_c_9_apply]

/-- The reference's cost of row `n` is the specification's. -/
theorem v31_at (x0 : X0) (x1 : X1) (n : Fin 1500000) :
    val_main_v31 (F := Ideal) x0 x1 (ix1 n)
      = RowLoss.rowLoss (fun k => x0 (ix2 n k)) (x1 (ix2 n (0 : Fin 2))) (x1 (ix2 n (1 : Fin 2))) := by
  rw [val_main_v31_apply, v30_at, v18_at, v28_at]
  rfl

/-! ## The sum over the rows, and the mean -/

/-- A row number is a rank-1 index, and every rank-1 index is one. -/
def rowEquiv : Fin 1500000 ≃ S1500000.Idx where
  toFun n := ix1 n
  invFun j := j 0
  left_inv _ := rfl
  right_inv j := (eq_ix1 j).symm

/-- The sum over the rank-1 indices, re-indexed over the row numbers, term by term. -/
theorem sum_rows (x0 : X0) (x1 : X1) :
    ∑ j : S1500000.Idx, val_main_v31 (F := Ideal) x0 x1 j
      = ∑ n : Fin 1500000,
          RowLoss.rowLoss (fun k => x0 (ix2 n k)) (x1 (ix2 n (0 : Fin 2))) (x1 (ix2 n (1 : Fin 2))) :=
  (Fintype.sum_equiv rowEquiv _ _ fun n => (v31_at x0 x1 n).symm).symm

/-- The reference's result is the mean row loss. -/
theorem reference_eq (x0 : (⟨Cert.ReferenceIdeal.S1500000x32, .f32⟩ : BufTy).Contents (Elt Ideal))
    (x1 : (⟨Cert.ReferenceIdeal.S1500000x2, .i32⟩ : BufTy).Contents (Elt Ideal)) :
    Cert.ReferenceIdeal.Read.val_main_v33 (F := Ideal) x0 x1
      = fun _ => Cert.RowLoss.meanLoss (fun n k => x0 (ix2 n k)) (fun n => x1 (ix2 n (0 : Fin 2)))
          (fun n => x1 (ix2 n (1 : Fin 2))) := by
  funext i
  rw [val_main_v33_apply, val_main_v32_apply, val_main_cst_10_apply, val_main_cst_11_apply, Ideal.hostDivf_def,
    Ideal.ofBits_def, Ideal.ofBits_def, Ideal.ofBits_zero_f32, zero_add, sum_rows]
  rfl

end Cert.RefLoss

end
-- ==== Proof.Cases.lean ====
/-
  What one grid point leaves in the accumulator, as a value.

  The body loads the tile's hazards `x0` and its duration / event words `x1`, and ends with ONE store that covers the
  1×1 accumulator: the accumulator it loaded plus the tile's masked sum (the payload `k0_pay1`). At the first point it
  first stores a zero and loads that back, so it leaves `0 + tile sum`; at every later point the accumulator it
  loads is what the point before left. Both facts hold at every float instance.
-/
import proofs.«153819_j89962384982548_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen

variable {F : FTy → Type} [FloatOps F]

theorem hz : (![0, 0] : Fin 2 → Nat) = fun _ => 0 := funext fun a => by fin_cases a <;> rfl

/-- What a point adds: the accumulator `acc` plus the masked sum of the tile `(x0, x1)` at grid coordinate `i`. -/
abbrev step (i : grid0.Coords) (x0 : Vec F S16384x32 .f32) (x1 : Vec F S16384x2 .i32) (acc : Vec F S1x1 .f32) :
    Vec F S1x1 .f32 :=
  k0_pay1 (BitVec.ofNat 32 (i 0).val) (k0_pay5 x1) (k0_pay7 x0 x1) (k0_pay8 x0) (k0_pay9 x1) acc

/-- A later point: the accumulator holding `xo` ends at `xo` plus the tile's masked sum. -/
theorem out_B (c : Dev nD) (i : grid0.Coords) (a1 : Memref sig .tc .vmem S16384x32 .f32) (h1 : a1.IsWhole)
    (a2 : Memref sig .tc .vmem S16384x2 .i32) (h2 : a2.IsWhole) (a3 : Memref sig .tc .vmem S1x1 .f32) (h3 : a3.IsWhole)
    (hc : ¬cond0_0 i) (x0 : Vec F S16384x32 .f32) (x1 : Vec F S16384x2 .i32) (xo : Vec F S1x1 .f32) :
    out0_B_2 c i a1 h1 a2 h2 a3 h3 hc x0 x1 xo = step i x0 x1 xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz]
  simp only [View.readAt_eq_ld, h1.read_unread, h2.read_unread, h3.read_unread, View.ld_unit_zero (S := S16384x32) hz,
    View.ld_unit_zero (S := S16384x2) hz, View.ld_unit_zero (S := S1x1) hz]

/-- The first point: the accumulator is set to zero, read back, and ends at zero plus the tile's masked sum. -/
theorem out_A (c : Dev nD) (i : grid0.Coords) (a1 : Memref sig .tc .vmem S16384x32 .f32) (h1 : a1.IsWhole)
    (a2 : Memref sig .tc .vmem S16384x2 .i32) (h2 : a2.IsWhole) (a3 : Memref sig .tc .vmem S1x1 .f32) (h3 : a3.IsWhole)
    (hc : cond0_0 i) (x0 : Vec F S16384x32 .f32) (x1 : Vec F S16384x2 .i32) :
    out0_A_2 c i a1 h1 a2 h2 a3 h3 hc x0 x1 = step i x0 x1 (k0_pay2 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S16384x32) hz,
    View.ld_unit_zero (S := S16384x2) hz]

end Cert.KernelIdeal.Cases

end
-- ==== Proof.LibColumnLayout.lean ====
/-
  A vector kept as a column, and a column spread over a row, read at an entry.

  `[a] → [a, 1]` by a shape cast: entry `(i, u)` of the column is entry `i` of the vector (both sit at row-major
  position `i`, the unit coordinate `u` being `0`). `[a, 1] → [a, b]` by a broadcast: entry `(i, j)` is the
  column's entry `(i, 0)` — the unit axis is read at `0`, the other axis at its own coordinate. Generic in the
  extents and in the element type.
-/
import Idealize.ShloMosaic.Lib.Pipeline.Value
import Idealize.ShloMosaic.Lib.ValueIdx
import Idealize.ShloMosaic.Lib.ValueLayout

noncomputable section

namespace Cert.ColumnLayout

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnLayout

end
-- ==== Proof.LibLaneEntry.lean ====
/-
  Lane operations of a vector unit read at an entry, at the extended reals. Generic in the extents.

  Integer vector operations and the vector logarithm read at an index (each by definition); an `[a, 1]` column
  taken as an `[a]` vector (`shapeCast_a1_a_apply`); the lane number — an iota along the second axis of an `[a, b]`
  shape reads the word of the second coordinate (`iota_lane`); a lane sum of an `[a, b]` array from the zero word reads,
  at row `r`, the sum of that row's entries (`laneSum`, stated with the accumulator's neutrality as a hypothesis so that
  it applies in term mode to a printed reduction whatever proof the printed term carries); and the sum of ALL
  entries of an `[a]` vector the way a vector unit takes it — laid out as one row `[1, a]`, summed along the row
  into `[1]`, kept as a `[1, 1]` matrix and read at its one entry (`rowTotal`).
-/
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.LaneEntry

variable {s : Shape} {w : ℕ} {φ : FTy} {α : Type}

theorem cmpi_apply (p : CmpIPredicate) (x y : IVec s w) (i : s.Idx) : cmpi p x y i = IntOp.cmpi p (x i) (y i) := rfl
theorem subi_apply (x y : IVec s w) (i : s.Idx) : subi x y i = IntOp.subi (x i) (y i) := rfl
theorem addi_apply (x y : IVec s w) (i : s.Idx) : addi x y i = IntOp.addi (x i) (y i) := rfl
theorem maxsi_apply (x y : IVec s w) (i : s.Idx) : maxsi x y i = IntOp.maxsi (x i) (y i) := rfl
theorem minsi_apply (x y : IVec s w) (i : s.Idx) : minsi x y i = IntOp.minsi (x i) (y i) := rfl
theorem log_apply (x : FVec Ideal s φ) (i : s.Idx) : log x i = Ideal.log (x i) := rfl

/-- An `[a, 1]` column taken as an `[a]` vector reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The lane number: an iota along the second axis of an `[a, b]` shape reads, at `(r, k)`, the word of `k`. -/
theorem iota_lane {a b : ℕ} (h : (⟨2, ![a, b]⟩ : Shape).Iotas .tc 32 [1]) (r : Fin a) (k : Fin b) :
    iota .tc ⟨2, ![a, b]⟩ 32 [1] h (ix2 r k) = BitVec.ofNat 32 k.val := by
  unfold iota
  show BitVec.ofNat 32 (0 * b + k.val) = _
  rw [Nat.zero_mul, Nat.zero_add]

/-- A lane sum of an `[a, b]` array from the zero word reads, at row `r`, the sum of the row's entries. -/
theorem laneSum {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (funext fun ax => Fin.ext (by
      match ax with | ⟨0, _⟩ => rfl | ⟨1, _⟩ => rfl)))

/-- A vector of `a` entries laid out as one row, summed along the row, kept as a 1×1 matrix and read at its one
    entry: the sum of the entries. -/
theorem rowTotal {a : ℕ} (v : FVec Ideal ⟨1, ![a]⟩ .f32) (h1 : (⟨1, ![a]⟩ : Shape).ShapeCasts ⟨2, ![1, a]⟩)
    (h2 : (⟨2, ![1, a]⟩ : Shape).Reduces [1] ⟨1, ![1]⟩)
    (hφ : FKind.Formats .f32) (hacc : (0x00000000#32 : BitVec 32) = FKind.add.neutral .f32 hφ)
    (h3 : (⟨1, ![1]⟩ : Shape).ShapeCasts ⟨2, ![1, 1]⟩)
    (h4 : ∀ ax, (![0, 0] : Fin 2 → Nat) ax < (⟨2, ![1, 1]⟩ : Shape).size ax) :
    extractAt ![0, 0] (shapeCast ⟨2, ![1, 1]⟩
        (multiReduction .add [1] ⟨1, ![1]⟩ (shapeCast ⟨2, ![1, a]⟩ v h1) 0x00000000#32 h2 hφ hacc) h3) h4
      = ∑ r : Fin a, v (ix1 r) := by
  unfold extractAt
  have e : (fun ax => (⟨(![0, 0] : Fin 2 → Nat) ax, h4 ax⟩ : Fin ((⟨2, ![1, 1]⟩ : Shape).size ax)))
      = ix2 (0 : Fin 1) (0 : Fin 1) :=
    funext fun ax => by match ax with | ⟨0, _⟩ => rfl | ⟨1, _⟩ => rfl
  rw [e, shapeCast_a_1a_apply _ _ (0 : Fin 1) (0 : Fin 1)]
  refine (laneSum (a := 1) (b := a) _ _ _ _ (0 : Fin 1)).trans (Finset.sum_congr rfl fun r _ => ?_)
  exact shapeCast_a_1a_apply v h1 (0 : Fin 1) r

end Cert.LaneEntry

end
-- ==== Proof.TileSum.lean ====
/-
  The tile's masked sum, read off the body's arithmetic at the extended reals.

  For a tile of 16,384 rows — hazards `x0` (16384×32) and words `x1` (16384×2: duration, event) — the body computes, row
  by row, the clipped duration, the two masked lane sums and the choice between them, which is the row loss of the
  specification; masks the rows whose number `16384·a + r` is not below 1,500,000; sums the 16,384 masked row losses;
  and adds the result to the accumulator it loaded. Every layout step (a column of `x1` taken as a vector, a vector
  spread over the 32 lanes, the row of 16,384 masked losses summed along its one long axis) is read at an entry.
-/
import proofs.«153819_j89962384982548_2_alg».proof.Proof.Gen.KernelIdeal.Skeleton
import proofs.«153819_j89962384982548_2_alg».proof.Proof.RowLoss
import proofs.«153819_j89962384982548_2_alg».proof.Proof.LibColumnLayout
import proofs.«153819_j89962384982548_2_alg».proof.Proof.LibLaneEntry
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.TileSum

open Cert.KernelIdeal Cert.KernelIdeal.Gen Cert.RowLoss Cert.ColumnLayout Cert.LaneEntry

/-! ## The body's intermediate values at an entry -/

variable (x0 : Vec Ideal S16384x32 .f32) (x1 : Vec Ideal S16384x2 .i32)

/-- The clipped hazards. -/
theorem pay6_apply (r : Fin 16384) (k : Fin 32) : k0_pay6 x0 (ix2 r k) = hazard (x0 (ix2 r k)) := by
  unfold k0_pay6
  rw [shapeCast_self]
  rfl

/-- The event words: the second column of `x1`. -/
theorem pay5_apply (r : Fin 16384) : k0_pay5 x1 (ix1 r) = x1 (ix2 r 1) := by
  unfold k0_pay5 k0_pay3
  rw [shapeCast_self]
  refine (shapeCast_a1_a_apply _ _ r).trans ?_
  exact slice2_axis1_apply 1 x1 _ r (0 : Fin 1) (1 : Fin 2) rfl

/-- The clipped durations, from the first column of `x1`. -/
theorem pay4_apply (r : Fin 16384) : k0_pay4 x1 (ix1 r) = duration (x1 (ix2 r 0)) := by
  unfold k0_pay4 k0_pay3
  rw [shapeCast_self]
  show IntOp.minsi (IntOp.maxsi (shapeCast S16384 (extractStridedSlice S16384x1 ![0, 0] x1 _) _ (ix1 r)) 1#32) 32#32 = _
  rw [shapeCast_a1_a_apply _ _ r, slice2_axis1_apply 0 x1 _ r (0 : Fin 1) (0 : Fin 2) rfl]
  rfl

/-- The event side's terms: `-log h`. -/
theorem pay8_apply (r : Fin 16384) (k : Fin 32) : k0_pay8 x0 (ix2 r k) = -(Ideal.log (hazard (x0 (ix2 r k)))) := by
  unfold k0_pay8
  show Ideal.ofBits .f32 0x00000000#32 - Ideal.log (k0_pay6 x0 (ix2 r k)) = _
  rw [pay6_apply, Ideal.ofBits_zero_f32, zero_sub]

/-- The event side's mask: the lanes from `duration - 1` on. -/
theorem pay9_apply (r : Fin 16384) (k : Fin 32) :
    k0_pay9 x1 (ix2 r k) = IntOp.cmpi .sge (BitVec.ofNat 32 k.val) (IntOp.subi (duration (x1 (ix2 r 0))) 1#32) := by
  unfold k0_pay9
  show IntOp.cmpi .sge (iota .tc S16384x32 32 [1] _ (ix2 r k))
    (broadcastTo S16384x32 (shapeCast S16384x1 (subi (k0_pay4 x1) (broadcast S16384 1#32)) _) _ (ix2 r k)) = _
  rw [iota_lane (a := 16384) (b := 32) _ r k, broadcastTo_a1_ab_apply _ _ r k, shapeCast_a_a1_apply _ _ r (0 : Fin 1)]
  show IntOp.cmpi .sge _ (IntOp.subi (k0_pay4 x1 (ix1 r)) 1#32) = _
  rw [pay4_apply]

/-- The censored side: the masked lane sum of `-log (max (1 - h) lo)` over the lanes below the duration. -/
theorem pay7_apply (r : Fin 16384) :
    k0_pay7 x0 x1 (ix1 r) = censored (fun k => x0 (ix2 r k)) (x1 (ix2 r 0)) := by
  unfold k0_pay7
  refine (laneSum (a := 16384) (b := 32) _ _ _ _ r).trans ?_
  unfold censored
  refine Finset.sum_congr rfl fun k _ => ?_
  show Scalar.select (IntOp.cmpi .slt (iota .tc S16384x32 32 [1] _ (ix2 r k))
        (broadcastTo S16384x32 (shapeCast S16384x1 (k0_pay4 x1) _) _ (ix2 r k)))
      (Ideal.ofBits .f32 0x00000000#32
        - Ideal.log (max (Ideal.ofBits .f32 0x3F800000#32 - k0_pay6 x0 (ix2 r k)) (Ideal.ofBits .f32 0x33D6BF95#32)))
      (Ideal.ofBits .f32 0x00000000#32) = _
  rw [iota_lane (a := 16384) (b := 32) _ r k, broadcastTo_a1_ab_apply _ _ r k, shapeCast_a_a1_apply _ _ r (0 : Fin 1),
    pay4_apply, pay6_apply, Ideal.ofBits_zero_f32, zero_sub]
  rfl

/-! ## The sum over the tile's rows -/

/-- The tile's masked row values, as the body forms them from the row vectors: the censored sum `v32` where the
    event word `v14` is zero, else the masked lane sum of the event terms `v35` under the mask `v40`; zero where the
    row number `16384·a + r` is not below 1,500,000. -/
def rowVec (a : BitVec 32) (v14 : IVec S16384 32) (v32 : FVec Ideal S16384 .f32) (v35 : FVec Ideal S16384x32 .f32)
    (v40 : IVec S16384x32 1) : FVec Ideal S16384 .f32 :=
  select
    (cmpi .slt
      (addi (broadcast S16384 (Scalar.muli a 16384#32))
        (shapeCast S16384 (iota .tc S1x16384 32 [1] iota_S1x16384_d1_w32) shapeCasts_S1x16384_S16384))
      (broadcast S16384 1500000#32))
    (select (cmpi .eq v14 (broadcast S16384 0#32)) v32
      (multiReduction .add [1] S16384 (select v40 v35 (broadcast S16384x32 (Scalar.ofBits (F := Ideal) .f32 0x00000000#32)))
        0x00000000#32 reduces_S16384x32_S16384 (.inl rfl) rfl))
    (broadcast S16384 (Scalar.ofBits (F := Ideal) .f32 0x00000000#32))

/-- The masked row value of row `r`. -/
theorem rowVec_apply (a : BitVec 32) (v14 : IVec S16384 32) (v32 : FVec Ideal S16384 .f32)
    (v35 : FVec Ideal S16384x32 .f32) (v40 : IVec S16384x32 1) (r : Fin 16384) :
    rowVec a v14 v32 v35 v40 (ix1 r)
      = Scalar.select (IntOp.cmpi .slt (IntOp.addi (IntOp.muli a 16384#32) (BitVec.ofNat 32 r.val)) 1500000#32)
          (Scalar.select (IntOp.cmpi .eq (v14 (ix1 r)) 0#32) (v32 (ix1 r))
            (∑ k : Fin 32, Scalar.select (v40 (ix2 r k)) (v35 (ix2 r k)) 0)) 0 := by
  unfold rowVec
  show Scalar.select (IntOp.cmpi .slt (IntOp.addi (IntOp.muli a 16384#32)
          (shapeCast S16384 (iota .tc S1x16384 32 [1] _) _ (ix1 r))) 1500000#32)
        (Scalar.select (IntOp.cmpi .eq (v14 (ix1 r)) 0#32) (v32 (ix1 r))
          (multiReduction .add [1] S16384 (select v40 v35 (broadcast S16384x32 (Ideal.ofBits .f32 0x00000000#32)))
            0x00000000#32 _ _ _ (ix1 r)))
        (Ideal.ofBits .f32 0x00000000#32) = _
  rw [shapeCast_1a_a_apply _ _ r, iota_lane (a := 1) (b := 16384) _ (0 : Fin 1) r, Ideal.ofBits_zero_f32]
  refine congrArg (Scalar.select _ · 0) (congrArg (Scalar.select _ _ ·) ?_)
  exact laneSum (a := 16384) (b := 32) _ _ _ _ r

/-- The value the body stores is the loaded accumulator plus the sum of the masked row values, taken the vector
    unit's way: the 16,384 values laid out as one row, summed along it, read at the one entry. -/
theorem pay1_split (a : BitVec 32) (v14 : IVec S16384 32) (v32 : FVec Ideal S16384 .f32) (v35 : FVec Ideal S16384x32 .f32)
    (v40 : IVec S16384x32 1) (acc : Vec Ideal S1x1 .f32) (j : S1x1.Idx) :
    k0_pay1 a v14 v32 v35 v40 acc j
      = acc j + extractAt ![0, 0] (shapeCast S1x1 (multiReduction .add [1] S1
          (shapeCast S1x16384 (rowVec a v14 v32 v35 v40) shapeCasts_S16384_S1x16384) 0x00000000#32 reduces_S1x16384_S1
          (.inl rfl) rfl) shapeCasts_S1_S1x1) inpos_S1x1_p0_0 := by
  unfold k0_pay1
  rw [shapeCast_self]
  show addf acc (broadcast S1x1 (extractAt ![0, 0] (shapeCast S1x1 (multiReduction .add [1] S1
          (shapeCast S1x16384 (rowVec a v14 v32 v35 v40) shapeCasts_S16384_S1x16384) 0x00000000#32 reduces_S1x16384_S1
          (.inl rfl) rfl) shapeCasts_S1_S1x1) inpos_S1x1_p0_0)) j = _
  rw [addf_apply, broadcast_apply]

/-- The value the body stores, for any row vectors: the loaded accumulator plus the sum over the rows of the row's
    value — the censored sum when the event word is zero, else the masked lane sum of the event terms — the rows
    whose number is not below 1,500,000 counted as zero. -/
theorem pay1_rows (a : BitVec 32) (v14 : IVec S16384 32) (v32 : FVec Ideal S16384 .f32) (v35 : FVec Ideal S16384x32 .f32)
    (v40 : IVec S16384x32 1) (acc : Vec Ideal S1x1 .f32) (j : S1x1.Idx) :
    k0_pay1 a v14 v32 v35 v40 acc j
      = acc j + ∑ r : Fin 16384,
          Scalar.select (IntOp.cmpi .slt (IntOp.addi (IntOp.muli a 16384#32) (BitVec.ofNat 32 r.val)) 1500000#32)
            (Scalar.select (IntOp.cmpi .eq (v14 (ix1 r)) 0#32) (v32 (ix1 r))
              (∑ k : Fin 32, Scalar.select (v40 (ix2 r k)) (v35 (ix2 r k)) 0)) 0 := by
  rw [pay1_split]
  refine congrArg (acc j + ·) ?_
  exact (rowTotal (a := 16384) (rowVec a v14 v32 v35 v40) _ _ _ _ _ _).trans
    (Finset.sum_congr rfl fun r _ => rowVec_apply a v14 v32 v35 v40 r)

/-- The masked sum of one tile: its rows' losses, a row counted when `16384·a + r` is below 1,500,000. -/
def tile (a : BitVec 32) (x0 : Vec Ideal S16384x32 .f32) (x1 : Vec Ideal S16384x2 .i32) : EReal :=
  ∑ r : Fin 16384,
    Scalar.select (IntOp.cmpi .slt (IntOp.addi (IntOp.muli a 16384#32) (BitVec.ofNat 32 r.val)) 1500000#32)
      (rowLoss (fun k => x0 (ix2 r k)) (x1 (ix2 r 0)) (x1 (ix2 r 1))) 0

/-- What the body stores at the tile `(x0, x1)`: the loaded accumulator plus the tile's masked sum. -/
theorem step_apply (a : BitVec 32) (acc : Vec Ideal S1x1 .f32) (j : S1x1.Idx) :
    k0_pay1 a (k0_pay5 x1) (k0_pay7 x0 x1) (k0_pay8 x0) (k0_pay9 x1) acc j = acc j + tile a x0 x1 := by
  rw [pay1_rows]
  unfold tile rowLoss event
  refine congrArg (acc j + ·) (Finset.sum_congr rfl fun r _ => ?_)
  rw [pay5_apply, pay7_apply]
  refine congrArg (Scalar.select _ · 0) (congrArg (Scalar.select _ _ ·) ?_)
  exact Finset.sum_congr rfl fun k _ => by rw [pay9_apply, pay8_apply]

end Cert.KernelIdeal.TileSum

end
-- ==== Proof.Blocks.lean ====
/-
  The tiles the body sees are rows of the arguments.

  The host pads both arguments with 7,328 rows before the region; the window of tile `t` reads rows `16384·t + r` of the
  padded arrays (the index map sends `t` to block `(t, 0)`, a block's coordinate is index × size + the coordinate inside
  the block). A padded array read inside its first 1,500,000 rows is the argument there. So a row of a tile whose
  number is below 1,500,000 is that row of the arguments; the other rows of the last tile are padding, which the body
  masks and which nothing here speaks of.
-/
import proofs.«153819_j89962384982548_2_alg».proof.Proof.Gen.KernelIdeal.Frame
import Idealize.ShloMosaic.Lib.Pipeline.Value
import Idealize.ShloMosaic.Lib.StableHlo.Run
import Idealize.ShloMosaic.Lib.KernelVsHost
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- The index maps, decided over the grid: tile `t` is block `(t, 0)` of both inputs. -/
theorem idx_facts : ∀ t : Fin cfg0.N,
    (win0_0.index t 0 = t.val ∧ win0_0.index t 1 = 0) ∧ (win0_1.index t 0 = t.val ∧ win0_1.index t 1 = 0) :=
  (by decide +kernel : ∀ t : Fin grid0.N,
    (win0_0.index t 0 = t.val ∧ win0_0.index t 1 = 0) ∧ (win0_1.index t 0 = t.val ∧ win0_1.index t 1 = 0))

/-- The grid's one coordinate at point `t` is `t`. -/
theorem coord_facts : ∀ t : Fin cfg0.N, (grid0.coords t 0).val = t.val :=
  (by decide +kernel : ∀ t : Fin grid0.N, (grid0.coords t 0).val = t.val)

/-- Tile `t` of the hazards: entry `(r, k)` is entry `(16384·t + r, k)` of the padded array. -/
theorem iblk0_apply (c : Dev nD) (t : Fin cfg0.N) (r : Fin 16384) (k : Fin 32) (h : t.val * 16384 + r.val < 1507328) :
    (iblk m c 0 t : Vec Ideal S16384x32 .f32) (ix2 r k) = V m c main_v0 (ix2 ⟨t.val * 16384 + r.val, h⟩ k) := by
  have hi := (idx_facts t).1
  unfold iblk
  rw [View.read_apply]
  show V m c main_v0 _ = V m c main_v0 _
  congr 1
  funext a
  apply Fin.ext
  match a with
  | ⟨0, _⟩ => show win0_0.index t 0 * 16384 + 1 * r.val = t.val * 16384 + r.val; rw [hi.1]; omega
  | ⟨1, _⟩ => show win0_0.index t 1 * 32 + 1 * k.val = k.val; rw [hi.2]; omega

/-- Tile `t` of the words: entry `(r, q)` is entry `(16384·t + r, q)` of the padded array. -/
theorem iblk1_apply (c : Dev nD) (t : Fin cfg0.N) (r : Fin 16384) (q : Fin 2) (h : t.val * 16384 + r.val < 1507328) :
    (iblk m c 1 t : Vec Ideal S16384x2 .i32) (ix2 r q) = V m c main_v1 (ix2 ⟨t.val * 16384 + r.val, h⟩ q) := by
  have hi := (idx_facts t).2
  unfold iblk
  rw [View.read_apply]
  show V m c main_v1 _ = V m c main_v1 _
  congr 1
  funext a
  apply Fin.ext
  match a with
  | ⟨0, _⟩ => show win0_1.index t 0 * 16384 + 1 * r.val = t.val * 16384 + r.val; rw [hi.1]; omega
  | ⟨1, _⟩ => show win0_1.index t 1 * 2 + 1 * q.val = q.val; rw [hi.2]; omega

/-- The padded hazards, inside the first 1,500,000 rows, are the first argument. -/
theorem V_v0_apply (c : Dev nD) (n : ℕ) (hn : n < 1500000) (k : Fin 32) :
    (V m c main_v0 : S1507328x32.Idx → EReal) (ix2 ⟨n, by omega⟩ k)
      = (m ((c : Thread nD τ).loc main_arg0) : S1500000x32.Idx → EReal) (ix2 ⟨n, hn⟩ k) := by
  have e : (V m c main_v0 : S1507328x32.Idx → EReal)
      = pad S1507328x32 ![0, 0] ![7328, 0] ![0, 0] (m ((c : Thread nD τ).loc main_arg0) : S1500000x32.Idx → EReal)
          (sitofp (F := Ideal) .f32 (constantI S_ 32 0#32)) pads_S1500000x32_S1507328x32_073280_000 h_S_ := by
    dsimp only [Gen.V, Gen.V0]
    simp only [Gen.hostOps0, Gen.hostOps0_1, Gen.hostOps0_2, Gen.hostOps0_3, List.flatten_cons, List.flatten_nil,
      List.append_nil, List.cons_append, List.nil_append]
    after_results
    rfl
  rw [e]
  exact pad_apply_of_inside _ _ _ _ _ _ _ _ _ (fun a => by
    match a with
    | ⟨0, _⟩ => show n = 0 + n * (0 + 1); omega
    | ⟨1, _⟩ => show k.val = 0 + k.val * (0 + 1); omega)

/-- The padded words, inside the first 1,500,000 rows, are the second argument. -/
theorem V_v1_apply (c : Dev nD) (n : ℕ) (hn : n < 1500000) (q : Fin 2) :
    (V m c main_v1 : S1507328x2.Idx → BitVec 32) (ix2 ⟨n, by omega⟩ q)
      = (m ((c : Thread nD τ).loc main_arg1) : S1500000x2.Idx → BitVec 32) (ix2 ⟨n, hn⟩ q) := by
  have e : (V m c main_v1 : S1507328x2.Idx → BitVec 32)
      = pad S1507328x2 ![0, 0] ![7328, 0] ![0, 0] (m ((c : Thread nD τ).loc main_arg1) : S1500000x2.Idx → BitVec 32)
          (id (constantI S_ 32 0#32)) pads_S1500000x2_S1507328x2_073280_000 h_S_ := by
    dsimp only [Gen.V, Gen.V0]
    simp only [Gen.hostOps0, Gen.hostOps0_1, Gen.hostOps0_2, Gen.hostOps0_3, List.flatten_cons, List.flatten_nil,
      List.append_nil, List.cons_append, List.nil_append]
    after_results
    rfl
  rw [e]
  exact pad_apply_of_inside _ _ _ _ _ _ _ _ _ (fun a => by
    match a with
    | ⟨0, _⟩ => show n = 0 + n * (0 + 1); omega
    | ⟨1, _⟩ => show q.val = 0 + q.val * (0 + 1); omega)

end Cert.KernelIdeal.Blocks

end
-- ==== Proof.Accumulate.lean ====
/-
  The accumulator over the grid, and the sum it ends at.

  After point `n` the 1×1 accumulator holds the running sum of the masked sums of tiles `0 … n`: the first point
  leaves `0 + tile 0`, each later point adds its tile to what the point before left (induction on the point, the two
  cases of the body's conditional). The running sum after the last point is the sum over the 92 tiles; a row of tile
  `t` counts exactly when `16384·t + r < 1500000`, and then it is that row of the arguments, so the sum over the tiles
  of the masked tile sums is the sum of the 1,500,000 row losses — a regrouping of one finite sum, valid on all
  extended reals.
-/
import proofs.«153819_j89962384982548_2_alg».proof.Proof.Cases
import proofs.«153819_j89962384982548_2_alg».proof.Proof.TileSum
import proofs.«153819_j89962384982548_2_alg».proof.Proof.Blocks

noncomputable section

open Idealize.ShloMosaic Idealize.ShloMosaic.TcCoe Idealize.SL.Sem Idealize.ShloMosaic.ValueIdx

namespace Cert.KernelIdeal.Accumulate

open Cert.KernelIdeal Cert.KernelIdeal.Gen Cert.RowLoss

variable (m : (ℓ : Loc nD τ sig) → Buf (Elt Ideal) ℓ)

/-- The masked sum of the tile at point `t`. -/
def tileAt (c : Dev nD) (t : Fin cfg0.N) : EReal :=
  TileSum.tile (BitVec.ofNat 32 (grid0.coords t 0).val) (iblk m c 0 t) (iblk m c 1 t)

/-- The running sum of the tiles' masked sums up to point `n`. -/
def running (c : Dev nD) : (n : ℕ) → n < cfg0.N → EReal
  | 0, h => tileAt m c ⟨0, h⟩
  | n + 1, h => running c n (Nat.lt_of_succ_lt h) + tileAt m c ⟨n + 1, h⟩

/-- What the accumulator holds after point `n` is the running sum, at its one entry. -/
theorem outsAt_eq (c : Dev nD) : ∀ (n : ℕ) (h : n < cfg0.N),
    (outsAt0 m c n h : Vec Ideal S1x1 .f32) = fun _ => running m c n h
  | 0, h => by
    refine ((outsAt0_A m c ⟨0, h⟩ rfl).trans (Cases.out_A (F := Ideal) c (grid0.coords ⟨0, h⟩) (ms0_0 ⟨0, h⟩) (hs0_0 ⟨0, h⟩)
      (ms0_1 ⟨0, h⟩) (hs0_1 ⟨0, h⟩) (ms0_2 ⟨0, h⟩) (hs0_2 ⟨0, h⟩) ((hcond0_0 ⟨0, h⟩).mpr rfl)
      (iblk m c 0 ⟨0, h⟩) (iblk m c 1 ⟨0, h⟩))).trans ?_
    funext j
    refine (TileSum.step_apply (iblk m c 0 ⟨0, h⟩) (iblk m c 1 ⟨0, h⟩)
      (BitVec.ofNat 32 (grid0.coords ⟨0, h⟩ 0).val) (k0_pay2 (F := Ideal)) j).trans ?_
    show Ideal.ofBits .f32 0x00000000#32 + tileAt m c ⟨0, h⟩ = running m c 0 h
    rw [Ideal.ofBits_zero_f32, zero_add]
    rfl
  | n + 1, h => by
    have hN : cfg0.N = 92 := N_0
    have hB : ¬(⟨n + 1, h⟩ : Fin cfg0.N).val % 92 = 0 := by dsimp only; omega
    refine ((outsAt0_B m c ⟨n + 1, h⟩ hB).trans (Cases.out_B (F := Ideal) c (grid0.coords ⟨n + 1, h⟩) (ms0_0 ⟨n + 1, h⟩)
      (hs0_0 ⟨n + 1, h⟩) (ms0_1 ⟨n + 1, h⟩) (hs0_1 ⟨n + 1, h⟩) (ms0_2 ⟨n + 1, h⟩) (hs0_2 ⟨n + 1, h⟩)
      (fun hc => hB ((hcond0_0 ⟨n + 1, h⟩).mp hc)) (iblk m c 0 ⟨n + 1, h⟩) (iblk m c 1 ⟨n + 1, h⟩)
      (outsAt0 m c n (Nat.lt_of_succ_lt h)))).trans ?_
    funext j
    refine (TileSum.step_apply (iblk m c 0 ⟨n + 1, h⟩) (iblk m c 1 ⟨n + 1, h⟩)
      (BitVec.ofNat 32 (grid0.coords ⟨n + 1, h⟩ 0).val) (outsAt0 m c n (Nat.lt_of_succ_lt h)) j).trans ?_
    show (outsAt0 m c n (Nat.lt_of_succ_lt h) : Vec Ideal S1x1 .f32) j + tileAt m c ⟨n + 1, h⟩ = running m c (n + 1) h
    rw [outsAt_eq c n (Nat.lt_of_succ_lt h)]
    rfl

/-- The tile's masked sum by its number, zero past the grid. -/
def tileN (c : Dev nD) (s : ℕ) : EReal := if h : s < cfg0.N then tileAt m c ⟨s, h⟩ else 0

/-- The running sum is the sum of the tiles' masked sums over the numbers up to `n`. -/
theorem running_eq_sum (c : Dev nD) : ∀ (n : ℕ) (h : n < cfg0.N),
    running m c n h = ∑ s ∈ Finset.range (n + 1), tileN m c s
  | 0, h => by
    show running m c 0 h = ∑ s ∈ Finset.range 1, tileN m c s
    rw [Finset.sum_range_one]
    unfold tileN
    rw [dif_pos h]
    rfl
  | n + 1, h => by
    rw [Finset.sum_range_succ, ← running_eq_sum c n (Nat.lt_of_succ_lt h)]
    unfold tileN
    rw [dif_pos h]
    rfl

/-- Row `n` of the arguments, as the specification reads it. -/
def argRow (c : Dev nD) (n : Fin 1500000) : EReal :=
  rowLoss (fun k => (m ((c : Thread nD τ).loc main_arg0) : S1500000x32.Idx → EReal) (ix2 n k))
    ((m ((c : Thread nD τ).loc main_arg1) : S1500000x2.Idx → BitVec 32) (ix2 n (0 : Fin 2)))
    ((m ((c : Thread nD τ).loc main_arg1) : S1500000x2.Idx → BitVec 32) (ix2 n (1 : Fin 2)))

/-- The masked sum of tile `t`: its rows below 1,500,000 are rows of the arguments, the others count zero. -/
theorem tileN_eq (c : Dev nD) (t : Fin 92) :
    tileN m c t.val
      = ∑ r : Fin 16384, (if h : t.val * 16384 + r.val < 1500000 then argRow m c ⟨t.val * 16384 + r.val, h⟩ else 0) := by
  have hN : cfg0.N = 92 := N_0
  have ht : t.val < cfg0.N := by rw [hN]; exact t.isLt
  unfold tileN
  rw [dif_pos ht]
  unfold tileAt TileSum.tile
  refine Finset.sum_congr rfl fun r _ => ?_
  rw [Blocks.coord_facts ⟨t.val, ht⟩]
  have hlt : t.val * 16384 + r.val < 1507328 := by have := t.isLt; have := r.isLt; omega
  by_cases hv : t.val * 16384 + r.val < 1500000
  · rw [(valid_iff t.val r.val t.isLt r.isLt).mpr hv, select_one, dif_pos hv]
    unfold argRow
    have e0 : ∀ k : Fin 32, (iblk m c 0 ⟨t.val, ht⟩ : Vec Ideal S16384x32 .f32) (ix2 r k)
        = (m ((c : Thread nD τ).loc main_arg0) : S1500000x32.Idx → EReal) (ix2 ⟨t.val * 16384 + r.val, hv⟩ k) :=
      fun k => (Blocks.iblk0_apply m c ⟨t.val, ht⟩ r k hlt).trans (Blocks.V_v0_apply m c _ hv k)
    have e1 : ∀ q : Fin 2, (iblk m c 1 ⟨t.val, ht⟩ : Vec Ideal S16384x2 .i32) (ix2 r q)
        = (m ((c : Thread nD τ).loc main_arg1) : S1500000x2.Idx → BitVec 32) (ix2 ⟨t.val * 16384 + r.val, hv⟩ q) :=
      fun q => (Blocks.iblk1_apply m c ⟨t.val, ht⟩ r q hlt).trans (Blocks.V_v1_apply m c _ hv q)
    exact congr (congr (congrArg rowLoss (funext e0)) (e1 0)) (e1 1)
  · have hne : ¬IntOp.cmpi .slt (IntOp.addi (IntOp.muli (BitVec.ofNat 32 t.val) 16384#32) (BitVec.ofNat 32 r.val))
        1500000#32 = 1#1 := fun hc => hv ((valid_iff t.val r.val t.isLt r.isLt).mp hc)
    rw [eq_zero_of_ne_one hne, select_zero, dif_neg hv]

/-- The accumulator ends at the sum of the 1,500,000 row losses of the arguments. -/
theorem last_eq (c : Dev nD) (h : 91 < cfg0.N) : running m c 91 h = ∑ n : Fin 1500000, argRow m c n := by
  rw [running_eq_sum, Finset.sum_range (fun s => tileN m c s)]
  rw [Finset.sum_congr rfl fun t _ => tileN_eq m c t]
  exact sum_tiles_masked (argRow m c)

end Cert.KernelIdeal.Accumulate

end
-- ==== Proof.KernelValue.lean ====
/-
  The kernel's result: the mean row loss of its arguments.

  The accumulator is written back once, after the last grid point, and its 1×1 block is the whole 1×1 result array, so
  the array ends holding the sum of the 1,500,000 row losses. The host then takes the array as a scalar and divides it
  by the word of 1,500,000. The arguments end as they were.
-/
import proofs.«153819_j89962384982548_2_alg».proof.Proof.Accumulate
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.RowLoss

variable (m : (ℓ : Loc nD τ sig) → Buf (Elt Ideal) ℓ) (ρ : Dev nD → PrngReg)

theorem hLast : 91 < cfg0.N := by rw [show cfg0.N = 92 from N_0]; decide

/-- The last grid point, the one write-back. -/
abbrev tLast : Fin cfg0.N := ⟨91, hLast⟩

/-- The sum of the row losses of the arguments. -/
abbrev total (c : Dev nD) : EReal := ∑ n : Fin 1500000, Accumulate.argRow m c n

/-- The 1×1 result array of the region: the sum, at its one entry. -/
abbrev result (c : Dev nD) : Buf (Elt Ideal) ((c : Thread nD τ).loc main_v2) := fun _ => total m c

/-- The one write-back, after the last point, writes the sum: the accumulator then holds the running sum over all
    92 tiles, and a block of a constant array is constant. -/
theorem flushed_eq (c : Dev nD) (t : Fin cfg0.N) (hf : (cfg0.win 2).flush t = true) :
    (dats m 0 c).flushed 2 t = ((cfg0.win 2).blk t).view.read (Elt Ideal) (result m c) := by
  have hN : cfg0.N = 92 := N_0
  have h3 : t.val = 91 := by have := (flush0_2 t).mp hf; have := t.isLt; omega
  obtain rfl : t = tLast := Fin.ext h3
  show (cfg0.win 2).cut (grid0.coords tLast) ((dats m 0 c).after 2 tLast) = _
  rw [after0_2, Accumulate.outsAt_eq, Accumulate.last_eq]
  have hz' : (fun a => win0_2.index tLast a * main_v2.ty.shape.size a) = fun _ => 0 :=
    funext fun a => by fin_cases a <;> decide +kernel
  exact (Memref.read_access_unit_zero (Elt Ideal) main_v2 hz' (fun a => by rw [congrFun hz' a]; simp) (result m c)).symm

/-- So the region's result array ends holding the sum: the last point's block covers its one entry. -/
theorem final (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat)
          ∧ (i 0 : Nat) < win0_2.index tLast 0 * win0_2.size 0 + win0_2.xsize (grid0.coords tLast) 0
        rw [show win0_2.index tLast 0 * win0_2.size 0 = 0 from by decide +kernel,
          show win0_2.xsize (grid0.coords tLast) 0 = 1 from by decide +kernel]
        omega
      | ⟨1, _⟩ =>
        show win0_2.index tLast 1 * win0_2.size 1 ≤ (i 1 : Nat)
          ∧ (i 1 : Nat) < win0_2.index tLast 1 * win0_2.size 1 + win0_2.xsize (grid0.coords tLast) 1
        rw [show win0_2.index tLast 1 * win0_2.size 1 = 0 from by decide +kernel,
          show win0_2.xsize (grid0.coords tLast) 1 = 1 from by decide +kernel]
        omega⟩

/-- The program's result: the sum divided by the word of the row count. -/
abbrev value (c : Dev nD) : Buf (Elt Ideal) ((c : Thread nD τ).loc main_v4) := fun _ => Ideal.div (total m c) count

/-- The host lines after the region — the 1×1 array as a scalar, the division — leave the mean. -/
theorem tail_eq (c : Dev nD) :
    Pipeline.afterTail₀ cfgs (dats m) 0 (V0 m) [hostOps1] c main_v4 = value m c := by
  unfold Pipeline.afterTail₀
  show StableHlo.after hostOps1 _ (Proc.devRef .tc main_v4) = _
  after_results
  rw [show Pipeline.withArrays (cfgs 0).spec c (V0 m c) (fun w => (dats m 0 c).arrAt w (cfgs 0).N)
        (Proc.devRef .tc main_v2) = result m c from
      (Pipeline.withArrays_arr spec0 launch0.win.arr_inj c _ _ 2).trans (final m c)]
  rfl

/-- The run, read: the result at the mean row loss of the arguments, the arguments unchanged. -/
theorem run : θ_run defs (onTc (τ := τ) (main (F := Ideal))) ⟨m, fun _ => 0, ρ⟩ fun r => ∀ c : Dev nD,
      r.2.mem ((c.tc : Thread nD τ).loc main_v4) = value m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelValue

end
-- ==== Proof.lean ====
/-
  The certificate of a survival cross-entropy loss: a kernel that streams 1,500,000 rows of 32 hazards and two words
  (a duration, an event flag) through 92 tiles of 16,384 rows, accumulates the tiles' masked sums of row losses in a
  1×1 block and divides by the row count on the host, against the plain mean of the row losses.

  On the extended reals both programs compute `Cert.RowLoss.meanLoss` of the arguments. The reference does so stage by
  stage (Proof/RefLoss.lean, over the generated run and read-at-an-index modules). The kernel's value is read off its
  generated frame run: what one grid point leaves in the accumulator (Proof/Cases.lean), the tile's masked sum as a
  sum of row losses (Proof/TileSum.lean), the tiles as rows of the padded arguments (Proof/Blocks.lean), the running
  sum over the grid and its regrouping into the sum over the rows (Proof/Accumulate.lean, Proof/RowLoss.lean), and the
  one write-back with the host's division after it (Proof/KernelValue.lean). The two sides differ only by the order of
  the operands of max and min, by `0 - x` against `-x`, by zero initial values of sums, and by the grouping of one
  finite sum with zero terms for the padding rows: laws of the extended reals that need no finiteness, so the
  precondition is never opened. The ideal pass rewrote nothing, so `preserves` is trivial; the three frames are the
  generated ones.
-/
import proofs.«153819_j89962384982548_2_alg».proof.Defs
import proofs.«153819_j89962384982548_2_alg».proof.Proof.Gen.Kernel
import proofs.«153819_j89962384982548_2_alg».proof.Proof.Gen.Kernel.Skeleton
import proofs.«153819_j89962384982548_2_alg».proof.Proof.Gen.Kernel.Launch
import proofs.«153819_j89962384982548_2_alg».proof.Proof.Gen.Kernel.Points
import proofs.«153819_j89962384982548_2_alg».proof.Proof.Gen.Kernel.Frame
import proofs.«153819_j89962384982548_2_alg».proof.Proof.Gen.KernelIdeal
import proofs.«153819_j89962384982548_2_alg».proof.Proof.Gen.KernelIdeal.Skeleton
import proofs.«153819_j89962384982548_2_alg».proof.Proof.Gen.KernelIdeal.Launch
import proofs.«153819_j89962384982548_2_alg».proof.Proof.Gen.KernelIdeal.Points
import proofs.«153819_j89962384982548_2_alg».proof.Proof.Gen.KernelIdeal.Frame
import proofs.«153819_j89962384982548_2_alg».proof.Proof.Gen.ReferenceIdeal
import proofs.«153819_j89962384982548_2_alg».proof.Proof.Gen.Pre_finite_inputs
import proofs.«153819_j89962384982548_2_alg».proof.Proof.Gen.ReferenceIdeal.Run
import proofs.«153819_j89962384982548_2_alg».proof.Proof.Gen.ReferenceIdeal.Read
import proofs.«153819_j89962384982548_2_alg».proof.Proof.RefLoss
import proofs.«153819_j89962384982548_2_alg».proof.Proof.KernelValue
import Idealize.ShloMosaic.Adequacy
import Idealize.ShloMosaic.Init

noncomputable section

namespace Cert.Proof

open Idealize.ShloMosaic Idealize.SL.Sem Idealize.ShloMosaic.ValueIdx

/-- The word-level kernel's frame: generated. -/
theorem frame_k : Cert.frame_Kernel := fun m ρ _ => Cert.Kernel.Gen.frame m ρ

/-- The idealized kernel's frame: generated. -/
theorem frame_ki : Cert.frame_KernelIdeal := fun m ρ _ => Cert.KernelIdeal.Gen.frame m ρ

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On the extended reals the kernel's result is the mean row loss of its arguments (the kernel's value run) and the
    reference's is the mean row loss of arguments that agree with them (the reference's run, read stage by stage). -/
theorem algebraic : Cert.algebraic_KernelIdeal_ReferenceIdeal := by
  intro m ρ m' ρ' _ hagree
  refine ⟨fun c => Cert.KernelIdeal.KernelValue.value m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.RefLoss.reference_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
